-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128x64 : Shape := ⟨2, ![128, 64]⟩
abbrev S800000 : Shape := ⟨1, ![800000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_arg4 : FVec F S128x64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128x128 .f32) (main_arg3 : FVec F S128x64 .f32) (main_arg4 : FVec F S128x64 .f32) (main_arg5 : IVec S800000 32) (main_arg6 : IVec S800000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128x64 : Shape := ⟨2, ![128, 64]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S4000x128 : Shape := ⟨2, ![4000, 128]⟩
abbrev S100000x64 : Shape := ⟨2, ![100000, 64]⟩
abbrev S4000x64 : Shape := ⟨2, ![4000, 64]⟩

abbrev nBuf : Space → Nat
  | .hbm => 59
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128x64, .f32⟩
  | .hbm, ⟨4, _⟩ => ⟨S128x64, .f32⟩
  | .hbm, ⟨5, _⟩ => ⟨S800000, .i32⟩
  | .hbm, ⟨6, _⟩ => ⟨S800000, .i32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S_, .f32⟩
  | .hbm, ⟨17, _⟩ => ⟨S100000x128, .f32⟩
  | .hbm, ⟨18, _⟩ => ⟨S800000x1, .i32⟩
  | .hbm, ⟨19, _⟩ => ⟨S100000x128, .f32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S100000, .f32⟩
  | .hbm, ⟨24, _⟩ => ⟨S800000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .f32⟩
  | .hbm, ⟨42, _⟩ => ⟨S_, .f32⟩
  | .hbm, ⟨43, _⟩ => ⟨S100000x128, .f32⟩
  | .hbm, ⟨44, _⟩ => ⟨S800000x1, .i32⟩
  | .hbm, ⟨45, _⟩ => ⟨S100000x128, .f32⟩
  | .hbm, ⟨46, _⟩ => ⟨S_, .f32⟩
  | .hbm, ⟨47, _⟩ => ⟨S800000, .f32⟩
  | .hbm, ⟨48, _⟩ => ⟨S_, .f32⟩
  | .hbm, ⟨49, _⟩ => ⟨S100000, .f32⟩
  | .hbm, ⟨50, _⟩ => ⟨S800000x1, .i32⟩
  | .hbm, ⟨51, _⟩ => ⟨S100000, .f32⟩
  | .hbm, ⟨52, _⟩ => ⟨S_, .f32⟩
  | .hbm, ⟨53, _⟩ => ⟨S100000, .f32⟩
  | .hbm, ⟨54, _⟩ => ⟨S100000, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S128x64, .f32⟩
  | .local _ .vmem, ⟨13, _⟩ => ⟨S128x64, .f32⟩
  | .local _ .vmem, ⟨14, _⟩ => ⟨S4000x64, .f32⟩
  | .local _ .vmem, ⟨15, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_9 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .f32 = 32 ∨ (Rect.block (s := S100000x128) S4000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S100000x64.size a
  hwx1_4 : ∀ i : grid1.Coords, EltTy.bits .f32 = 32 ∨ (Rect.block (s := S100000x64) S4000x64.size (cc1_transform_4 i) (hinb1_4 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v19) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S4000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128x64 : Shape := ⟨2, ![128, 64]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S100000x64 : Shape := ⟨2, ![100000, 64]⟩

abbrev nBuf : Space → Nat
  | .hbm => 66
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128x64, .f32⟩
  | .hbm, ⟨4, _⟩ => ⟨S128x64, .f32⟩
  | .hbm, ⟨5, _⟩ => ⟨S800000, .i32⟩
  | .hbm, ⟨6, _⟩ => ⟨S800000, .i32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S_, .f32⟩
  | .hbm, ⟨17, _⟩ => ⟨S100000x128, .f32⟩
  | .hbm, ⟨18, _⟩ => ⟨S800000x1, .i32⟩
  | .hbm, ⟨19, _⟩ => ⟨S100000x128, .f32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S100000, .f32⟩
  | .hbm, ⟨24, _⟩ => ⟨S800000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S_, .f32⟩
  | .hbm, ⟨36, _⟩ => ⟨S100000x128, .f32⟩
  | .hbm, ⟨37, _⟩ => ⟨S100000x128, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S_, .f32⟩
  | .hbm, ⟨48, _⟩ => ⟨S100000x128, .f32⟩
  | .hbm, ⟨49, _⟩ => ⟨S800000x1, .i32⟩
  | .hbm, ⟨50, _⟩ => ⟨S100000x128, .f32⟩
  | .hbm, ⟨51, _⟩ => ⟨S_, .f32⟩
  | .hbm, ⟨52, _⟩ => ⟨S800000, .f32⟩
  | .hbm, ⟨53, _⟩ => ⟨S_, .f32⟩
  | .hbm, ⟨54, _⟩ => ⟨S100000, .f32⟩
  | .hbm, ⟨55, _⟩ => ⟨S800000x1, .i32⟩
  | .hbm, ⟨56, _⟩ => ⟨S100000, .f32⟩
  | .hbm, ⟨57, _⟩ => ⟨S_, .f32⟩
  | .hbm, ⟨58, _⟩ => ⟨S100000, .f32⟩
  | .hbm, ⟨59, _⟩ => ⟨S100000, .f32⟩
  | .hbm, ⟨60, _⟩ => ⟨S100000x1, .f32⟩
  | .hbm, ⟨61, _⟩ => ⟨S100000x128, .f32⟩
  | .hbm, ⟨62, _⟩ => ⟨S100000x128, .f32⟩
  | .hbm, ⟨63, _⟩ => ⟨S100000x64, .f32⟩
  | .hbm, ⟨64, _⟩ => ⟨S100000x64, .f32⟩
  | .hbm, ⟨65, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call0_cst : Ref sig .tc := ⟨.hbm, 35, rfl⟩
abbrev main_call0_v0 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run with its result array named.

  The program is four segments: the host operations computing the first neighbourhood mean, the first layer's tiled
  region, the host operations computing the second neighbourhood mean from the first layer's output, and the second
  layer's tiled region. The buffer contents at each segment boundary are a fold from the launch memory; the last
  boundary's contents hold, at the second region's output array, what that region's write-backs leave there. This
  module states the run with that array in its post (beside the argument arrays, which end as launched).
-/
import proofs.«118331_j38543036514868_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last boundary's
    contents and every argument array as launched. -/
theorem run_result : θ_run defs (onTc (τ := τ) (main (F := F))) ⟨m, fun _ => 0, ρ⟩ (fun r => ∀ c : Dev nD,
      r.2.mem ((c.tc : Thread nD τ).loc main_v39) = V4 m ρ c main_v39
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v39 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Hand

end
-- ==== Proof.LibPlainDot.lean ====
/-
  A plain matrix product read at an index, on the extended reals.

  For the dimension numbers of an M×K by K×N product (contract the left operand's axis 1 with the right operand's
  axis 0, no batch axis), the product at row `r`, column `n` is the sum over the K contraction positions of
  `l (r, k) · r' (k, n)`. The contraction index of the dimension record is a one-coordinate index; it is re-indexed by
  that coordinate, and the operand indices at an output index and a contraction position are read off coordinate by
  coordinate. Stated for a kernel's matrix unit accumulating into the zero splat and for a host `dot_general`.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The contraction shape of a plain product has one axis, -/
theorem contr_rank : (DotDims.plain M K N).contr.rank = 1 := rfl

/-- of extent K. -/
theorem contr_size : (DotDims.plain M K N).contr.size ⟨0, by rw [contr_rank]; exact Nat.one_pos⟩ = K := rfl

/-- The left operand's index at output index `j` and contraction position `k` is (row of `j`, `k`). -/
theorem lhsIdx_eq (j : (⟨2, ![M, N]⟩ : Shape).Idx) (k : Fin K) :
    (DotDims.plain M K N).lhsIdx j ((contrEquiv1 (DotDims.plain M K N) K (contr_rank M K N) (contr_size M K N)).symm k)
      = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand's index at output index `j` and contraction position `k` is (`k`, column of `j`). -/
theorem rhsIdx_eq (j : (⟨2, ![M, N]⟩ : Shape).Idx) (k : Fin K) :
    (DotDims.plain M K N).rhsIdx j ((contrEquiv1 (DotDims.plain M K N) K (contr_rank M K N) (contr_size M K N)).symm k)
      = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The sum over the record's contraction index is the sum over the K positions. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K (contr_rank M K N) (contr_size M K N)).symm]
  exact Finset.sum_congr rfl fun k _ =>
    congrArg₂ (fun a b => l a * r b) (lhsIdx_eq M K N j k) (rhsIdx_eq M K N j k)

/-- A kernel's matrix unit accumulating into the zero splat, at an index: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr M K N l r j)

/-- A host `dot_general` at an index: the same sum, whatever the precision and schedule keys. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr M K N l r j)

end Cert.LibPlainDot

end
-- ==== Proof.Layer.lean ====
/-
  One mean-aggregation graph layer, index by index, on the extended reals.

  A node's output feature is the node's own input features times the self weights plus the mean of its in-neighbours'
  features times the neighbour weights: two sums over the 128 input features, added. The hidden layer clips this
  below at zero. Both are stated here as functions of whole arrays over the literal shapes (100000 nodes, 128 input
  features, N output features), together with the same formula for one block of rows of any height, which is what a
  tile of the matrix unit computes.
-/
import proofs.«118331_j38543036514868_1_alg».proof.Proof.LibPlainDot
import Idealize.ShloMosaic.PureOps.Ideal
import Idealize.ShloMosaic.Lib.ValueIdx

noncomputable section

namespace Cert.Sage

open Idealize.ShloMosaic Idealize.ShloMosaic.ValueIdx

/-- The linear part on a block of `M` rows: at row `i 0` and output feature `i 1`, the row of `x` against column `i 1` of the
    self weights plus the row of `nb` against column `i 1` of the neighbour weights. -/
def linRows (M N : Nat) (x nb : (⟨2, ![M, 128]⟩ : Shape).Idx → EReal) (ws wn : (⟨2, ![128, N]⟩ : Shape).Idx → EReal) :
    (⟨2, ![M, N]⟩ : Shape).Idx → EReal :=
  fun i => (∑ k : Fin 128, x (ix2 (i 0) k) * ws (ix2 k (i 1))) + ∑ k : Fin 128, nb (ix2 (i 0) k) * wn (ix2 k (i 1))

/-- The same clipped below at zero (the zero written as the float word both programs print). -/
def hidRows (M N : Nat) (x nb : (⟨2, ![M, 128]⟩ : Shape).Idx → EReal) (ws wn : (⟨2, ![128, N]⟩ : Shape).Idx → EReal) :
    (⟨2, ![M, N]⟩ : Shape).Idx → EReal :=
  fun i => max (linRows M N x nb ws wn i) (Ideal.ofBits .f32 0x00000000#32)

/-- The linear part of a layer over all 100000 nodes. -/
abbrev lin (N : Nat) := linRows 100000 N

/-- The hidden layer over all 100000 nodes. -/
abbrev hid (N : Nat) := hidRows 100000 N

/-- A block of rows of the whole-array formula is the block formula of the blocks: the entry at row `r`, column `n` of the
    block depends only on row `r` of the two left blocks, which are rows of the arrays, and on column `n` of the two
    weight blocks, which are columns of the weight arrays. -/
theorem linRows_block (M N : Nat) (x nb : (⟨2, ![100000, 128]⟩ : Shape).Idx → EReal) (ws wn : (⟨2, ![128, N]⟩ : Shape).Idx → EReal)
    (xb nbb : (⟨2, ![M, 128]⟩ : Shape).Idx → EReal) (wsb wnb : (⟨2, ![128, N]⟩ : Shape).Idx → EReal)
    (j : (⟨2, ![M, N]⟩ : Shape).Idx) (i : (⟨2, ![100000, N]⟩ : Shape).Idx)
    (hx : ∀ k : Fin 128, xb (ix2 (j 0) k) = x (ix2 (i 0) k)) (hnb : ∀ k : Fin 128, nbb (ix2 (j 0) k) = nb (ix2 (i 0) k))
    (hws : ∀ k : Fin 128, wsb (ix2 k (j 1)) = ws (ix2 k (i 1))) (hwn : ∀ k : Fin 128, wnb (ix2 k (j 1)) = wn (ix2 k (i 1))) :
    linRows M N xb nbb wsb wnb j = linRows 100000 N x nb ws wn i := by
  unfold linRows
  exact congrArg₂ (· + ·) (Finset.sum_congr rfl fun k _ => by rw [hx k, hws k]) (Finset.sum_congr rfl fun k _ => by rw [hnb k, hwn k])

/-- The same for the clipped formula. -/
theorem hidRows_block (M N : Nat) (x nb : (⟨2, ![100000, 128]⟩ : Shape).Idx → EReal) (ws wn : (⟨2, ![128, N]⟩ : Shape).Idx → EReal)
    (xb nbb : (⟨2, ![M, 128]⟩ : Shape).Idx → EReal) (wsb wnb : (⟨2, ![128, N]⟩ : Shape).Idx → EReal)
    (j : (⟨2, ![M, N]⟩ : Shape).Idx) (i : (⟨2, ![100000, N]⟩ : Shape).Idx)
    (hx : ∀ k : Fin 128, xb (ix2 (j 0) k) = x (ix2 (i 0) k)) (hnb : ∀ k : Fin 128, nbb (ix2 (j 0) k) = nb (ix2 (i 0) k))
    (hws : ∀ k : Fin 128, wsb (ix2 k (j 1)) = ws (ix2 k (i 1))) (hwn : ∀ k : Fin 128, wnb (ix2 k (j 1)) = wn (ix2 k (i 1))) :
    hidRows M N xb nbb wsb wnb j = hidRows 100000 N x nb ws wn i := by
  unfold hidRows
  rw [linRows_block M N x nb ws wn xb nbb wsb wnb j i hx hnb hws hwn]

end Cert.Sage

end
-- ==== Proof.Payload.lean ====
/-
  What one tile of each layer's kernel stores, index by index, on the extended reals.

  The body narrows its four loaded blocks to bf16 (the identity on the extended reals), multiplies the node block by the
  self weights and the neighbour block by the neighbour weights on the matrix unit, each into a zero accumulator, adds
  the two products, and in the first layer clips the sum below at zero. Entry (r, n) of what it stores is therefore
  the sum over the 128 features of node-row r times self-weight column n, plus the same for the neighbour block.
-/
import proofs.«118331_j38543036514868_1_alg».proof.Proof.Gen.KernelIdeal.Skeleton
import proofs.«118331_j38543036514868_1_alg».proof.Proof.Layer
import Idealize.ShloMosaic.Lib.Pipeline.Value

noncomputable section

namespace Cert.Sage

open Idealize.ShloMosaic Idealize.ShloMosaic.ValueIdx Cert.KernelIdeal Cert.KernelIdeal.Gen

/-- The first layer's product record is the plain 4000×128 by 128×128 one. -/
theorem dot0_plain : dot_S4000x128_S128x128_S4000x128_1_0_0_1_n_n = DotDims.plain 4000 128 128 := rfl

/-- The second layer's product record is the plain 4000×128 by 128×64 one. -/
theorem dot1_plain : dot_S4000x128_S128x64_S4000x64_1_0_0_1_n_n = DotDims.plain 4000 128 64 := rfl

/-- The first layer's tile: the clipped linear part of its four blocks. -/
theorem pay0_eq (x0 x1 : Vec Ideal S4000x128 .f32) (x2 x3 : Vec Ideal S128x128 .f32) :
    k0_pay1 (F := Ideal) x0 x1 x2 x3 = hidRows 4000 128 x0 x1 x2 x3 := by
  funext j
  unfold k0_pay1
  rw [shapeCast_self, maximumf_apply, addf_apply, dot0_plain]
  exact congrArg₂ max (congrArg₂ (· + ·) (Cert.LibPlainDot.matmul_zero_apply 4000 128 128 none _ _ j)
    (Cert.LibPlainDot.matmul_zero_apply 4000 128 128 none _ _ j)) rfl

/-- The second layer's tile: the linear part of its four blocks. -/
theorem pay1_eq (x0 x1 : Vec Ideal S4000x128 .f32) (x2 x3 : Vec Ideal S128x64 .f32) :
    k1_pay1 (F := Ideal) x0 x1 x2 x3 = linRows 4000 64 x0 x1 x2 x3 := by
  funext j
  unfold k1_pay1
  rw [shapeCast_self, shapeCast_self, addf_apply, dot1_plain]
  exact congrArg₂ (· + ·) (Cert.LibPlainDot.matmul_zero_apply 4000 128 64 none _ _ j)
    (Cert.LibPlainDot.matmul_zero_apply 4000 128 64 none _ _ j)

end Cert.Sage

end
-- ==== Proof.Region.lean ====
/-
  Each layer's tiled region leaves the layer's whole-array formula in its output array.

  A region runs 25 grid points; point `t` loads rows `4000 t … 4000 t + 3999` of the node features and of the neighbourhood
  means and the two whole weight matrices, and writes back one tile of 4000 output rows. That tile is the layer's formula
  restricted to those rows, and the 25 tiles cover the 100000 rows, so the output array ends holding the formula of the
  arrays the region was entered with. Stated at a parameter `V`, the buffer contents when the region is entered.
-/
import proofs.«118331_j38543036514868_1_alg».proof.Proof.Gen.KernelIdeal.Frame
import proofs.«118331_j38543036514868_1_alg».proof.Proof.Payload
import Idealize.ShloMosaic.Lib.Pipeline.Value

set_option maxRecDepth 16384

noncomputable section

namespace Cert.Sage

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Every access of the bodies is at offset (0, 0). -/
theorem hz : (![0, 0] : Fin 2 → Nat) = fun _ => 0 := funext fun a => by fin_cases a <;> rfl

/-! ## Layer 1: region 0 -/

/-- The printed index maps of region 0 over its 25 grid points: the node-feature window, the neighbour-mean window and the
    output window are all at block row `t`; the two weight windows stay at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What grid point `t` writes back is rows `4000 t … 4000 t + 3999` of the layer's formula of the arrays as the region finds
    them: row `r` of the tile reads row `r` of the two node blocks, which are rows `4000 t + r` of their arrays, and the
    weight blocks are the weight arrays. -/
theorem flushed0_eq (c : Dev nD) (t : Fin cfg0.N) :
    (dat0 V c).flushed 4 t = ((cfg0.win 4).blk t).view.read (Elt Ideal)
      (hid 128 (V c main_arg0) (V c main_v18) (V c main_arg1) (V c main_arg2)) := by
  show (cfg0.win 4).cut (grid0.coords t) ((dat0 V c).after 4 t) = _
  rw [after0_4]
  unfold out0_4
  rw [View.canon_unit_zero hz]
  simp only [View.ld_unit_zero (S := S4000x128) hz, View.ld_unit_zero (S := S128x128) hz]
  rw [pay0_eq]
  obtain ⟨e00, e01, e10, e11, e20, e21, e30, e31, e40, e41⟩ := idx_facts0 t
  funext j
  refine hidRows_block 4000 128 (V c main_arg0) (V c main_v18) (V c main_arg1) (V c main_arg2)
    (iblk0 V c 0 t) (iblk0 V c 1 t) (iblk0 V c 2 t) (iblk0 V c 3 t) j (((cfg0.win 4).blk t).view.emb j)
    (fun k => ?_) (fun k => ?_) (fun k => ?_) (fun k => ?_)
  · show V c main_arg0 (((cfg0.win 0).blk t).view.emb (ix2 (j 0) k)) = V c main_arg0 (ix2 ((((cfg0.win 4).blk t).view.emb j) 0) k)
    refine congrArg _ (funext fun a => Fin.ext ?_)
    match a with
    | ⟨0, _⟩ => show win0_0.index t (0 : Fin 2) * 4000 + 1 * (j 0).val = win0_4.index t (0 : Fin 2) * 4000 + 1 * (j 0).val; omega
    | ⟨1, _⟩ => show win0_0.index t (1 : Fin 2) * 128 + 1 * k.val = k.val; omega
  · show V c main_v18 (((cfg0.win 1).blk t).view.emb (ix2 (j 0) k)) = V c main_v18 (ix2 ((((cfg0.win 4).blk t).view.emb j) 0) k)
    refine congrArg _ (funext fun a => Fin.ext ?_)
    match a with
    | ⟨0, _⟩ => show win0_1.index t (0 : Fin 2) * 4000 + 1 * (j 0).val = win0_4.index t (0 : Fin 2) * 4000 + 1 * (j 0).val; omega
    | ⟨1, _⟩ => show win0_1.index t (1 : Fin 2) * 128 + 1 * k.val = k.val; omega
  · show V c main_arg1 (((cfg0.win 2).blk t).view.emb (ix2 k (j 1))) = V c main_arg1 (ix2 k ((((cfg0.win 4).blk t).view.emb j) 1))
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * (j 1).val = win0_4.index t (1 : Fin 2) * 128 + 1 * (j 1).val; omega
  · show V c main_arg2 (((cfg0.win 3).blk t).view.emb (ix2 k (j 1))) = V c main_arg2 (ix2 k ((((cfg0.win 4).blk t).view.emb j) 1))
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * (j 1).val = win0_4.index t (1 : Fin 2) * 128 + 1 * (j 1).val; omega

/-- An index of the output array is in point `t`'s block iff each coordinate is in the block's range on its axis. -/
theorem mem_blk0 (t : Fin cfg0.N) (i : S100000x128.Idx) :
    i ∈ ((cfg0.win 4).blk t).view.set ↔ ∀ a : Fin 2, win0_4.index t a * S4000x128.size a ≤ (i a).val ∧ (i a).val < win0_4.index t a * S4000x128.size a + S4000x128.size a := by
  show i ∈ ((View.whole main_v19).slice (win0_4.rect t)).set ↔ _
  rw [View.set_slice_whole, Rect.mem_set_unit]
  exact Iff.rfl

/-- Every node row is written by the point whose number is the row divided by 4000. -/
theorem cover0 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hN : grid0.N = 25 := N_0
  have ht : (i 0).val / 4000 < cfg0.N := by show (i 0).val / 4000 < grid0.N; rw [hN]; omega
  refine ⟨⟨(i 0).val / 4000, ht⟩, flush0_4 _, ?_⟩
  rw [mem_blk0]
  obtain ⟨e00, e01, e10, e11, e20, e21, e30, e31, e40, e41⟩ := idx_facts0 ⟨(i 0).val / 4000, ht⟩
  have e40' : win0_4.index ⟨(i 0).val / 4000, ht⟩ (0 : Fin 2) = (i 0).val / 4000 := e40
  intro a
  match a with
  | ⟨0, _⟩ =>
    show win0_4.index ⟨(i 0).val / 4000, ht⟩ (0 : Fin 2) * 4000 ≤ (i 0).val ∧ (i 0).val < win0_4.index ⟨(i 0).val / 4000, ht⟩ (0 : Fin 2) * 4000 + 4000
    omega
  | ⟨1, _⟩ =>
    show win0_4.index ⟨(i 0).val / 4000, ht⟩ (1 : Fin 2) * 128 ≤ (i 1).val ∧ (i 1).val < win0_4.index ⟨(i 0).val / 4000, ht⟩ (1 : Fin 2) * 128 + 128
    omega

/-- After the region its output array holds the layer's formula of the arrays as the region found them. -/
theorem final0 (c : Dev nD) :
    (dat0 V c).arrAt 4 cfg0.N = hid 128 (V c main_arg0) (V c main_v18) (V c main_arg1) (V c main_arg2) :=
  (dat0 V c).arrAt_eq_of_cover 4 _ (fun t _ => flushed0_eq V c t) cover0

/-! ## Layer 2: region 1 -/

/-- The printed index maps of region 1 over its 25 grid points: the node-feature window, the neighbour-mean window and the
    output window are all at block row `t`; the two weight windows stay at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What grid point `t` writes back is rows `4000 t … 4000 t + 3999` of the layer's formula of the arrays as the region finds
    them: row `r` of the tile reads row `r` of the two node blocks, which are rows `4000 t + r` of their arrays, and the
    weight blocks are the weight arrays. -/
theorem flushed1_eq (c : Dev nD) (t : Fin cfg1.N) :
    (dat1 V c).flushed 4 t = ((cfg1.win 4).blk t).view.read (Elt Ideal)
      (lin 64 (V c main_v19) (V c main_v38) (V c main_arg3) (V c main_arg4)) := by
  show (cfg1.win 4).cut (grid1.coords t) ((dat1 V c).after 4 t) = _
  rw [after1_4]
  unfold out1_4
  rw [View.canon_unit_zero hz]
  simp only [View.ld_unit_zero (S := S4000x128) hz, View.ld_unit_zero (S := S128x64) hz]
  rw [pay1_eq]
  obtain ⟨e00, e01, e10, e11, e20, e21, e30, e31, e40, e41⟩ := idx_facts1 t
  funext j
  refine linRows_block 4000 64 (V c main_v19) (V c main_v38) (V c main_arg3) (V c main_arg4)
    (iblk1 V c 0 t) (iblk1 V c 1 t) (iblk1 V c 2 t) (iblk1 V c 3 t) j (((cfg1.win 4).blk t).view.emb j)
    (fun k => ?_) (fun k => ?_) (fun k => ?_) (fun k => ?_)
  · show V c main_v19 (((cfg1.win 0).blk t).view.emb (ix2 (j 0) k)) = V c main_v19 (ix2 ((((cfg1.win 4).blk t).view.emb j) 0) k)
    refine congrArg _ (funext fun a => Fin.ext ?_)
    match a with
    | ⟨0, _⟩ => show win1_0.index t (0 : Fin 2) * 4000 + 1 * (j 0).val = win1_4.index t (0 : Fin 2) * 4000 + 1 * (j 0).val; omega
    | ⟨1, _⟩ => show win1_0.index t (1 : Fin 2) * 128 + 1 * k.val = k.val; omega
  · show V c main_v38 (((cfg1.win 1).blk t).view.emb (ix2 (j 0) k)) = V c main_v38 (ix2 ((((cfg1.win 4).blk t).view.emb j) 0) k)
    refine congrArg _ (funext fun a => Fin.ext ?_)
    match a with
    | ⟨0, _⟩ => show win1_1.index t (0 : Fin 2) * 4000 + 1 * (j 0).val = win1_4.index t (0 : Fin 2) * 4000 + 1 * (j 0).val; omega
    | ⟨1, _⟩ => show win1_1.index t (1 : Fin 2) * 128 + 1 * k.val = k.val; omega
  · show V c main_arg3 (((cfg1.win 2).blk t).view.emb (ix2 k (j 1))) = V c main_arg3 (ix2 k ((((cfg1.win 4).blk t).view.emb j) 1))
    refine congrArg _ (funext fun a => Fin.ext ?_)
    match a with
    | ⟨0, _⟩ => show win1_2.index t (0 : Fin 2) * 128 + 1 * k.val = k.val; omega
    | ⟨1, _⟩ => show win1_2.index t (1 : Fin 2) * 64 + 1 * (j 1).val = win1_4.index t (1 : Fin 2) * 64 + 1 * (j 1).val; omega
  · show V c main_arg4 (((cfg1.win 3).blk t).view.emb (ix2 k (j 1))) = V c main_arg4 (ix2 k ((((cfg1.win 4).blk t).view.emb j) 1))
    refine congrArg _ (funext fun a => Fin.ext ?_)
    match a with
    | ⟨0, _⟩ => show win1_3.index t (0 : Fin 2) * 128 + 1 * k.val = k.val; omega
    | ⟨1, _⟩ => show win1_3.index t (1 : Fin 2) * 64 + 1 * (j 1).val = win1_4.index t (1 : Fin 2) * 64 + 1 * (j 1).val; omega

/-- An index of the output array is in point `t`'s block iff each coordinate is in the block's range on its axis. -/
theorem mem_blk1 (t : Fin cfg1.N) (i : S100000x64.Idx) :
    i ∈ ((cfg1.win 4).blk t).view.set ↔ ∀ a : Fin 2, win1_4.index t a * S4000x64.size a ≤ (i a).val ∧ (i a).val < win1_4.index t a * S4000x64.size a + S4000x64.size a := by
  show i ∈ ((View.whole main_v39).slice (win1_4.rect t)).set ↔ _
  rw [View.set_slice_whole, Rect.mem_set_unit]
  exact Iff.rfl

/-- Every node row is written by the point whose number is the row divided by 4000. -/
theorem cover1 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : grid1.N = 25 := N_1
  have ht : (i 0).val / 4000 < cfg1.N := by show (i 0).val / 4000 < grid1.N; rw [hN]; omega
  refine ⟨⟨(i 0).val / 4000, ht⟩, flush1_4 _, ?_⟩
  rw [mem_blk1]
  obtain ⟨e00, e01, e10, e11, e20, e21, e30, e31, e40, e41⟩ := idx_facts1 ⟨(i 0).val / 4000, ht⟩
  have e40' : win1_4.index ⟨(i 0).val / 4000, ht⟩ (0 : Fin 2) = (i 0).val / 4000 := e40
  intro a
  match a with
  | ⟨0, _⟩ =>
    show win1_4.index ⟨(i 0).val / 4000, ht⟩ (0 : Fin 2) * 4000 ≤ (i 0).val ∧ (i 0).val < win1_4.index ⟨(i 0).val / 4000, ht⟩ (0 : Fin 2) * 4000 + 4000
    omega
  | ⟨1, _⟩ =>
    show win1_4.index ⟨(i 0).val / 4000, ht⟩ (1 : Fin 2) * 64 ≤ (i 1).val ∧ (i 1).val < win1_4.index ⟨(i 0).val / 4000, ht⟩ (1 : Fin 2) * 64 + 64
    omega

/-- After the region its output array holds the layer's formula of the arrays as the region found them. -/
theorem final1 (c : Dev nD) :
    (dat1 V c).arrAt 4 cfg1.N = lin 64 (V c main_v19) (V c main_v38) (V c main_arg3) (V c main_arg4) :=
  (dat1 V c).arrAt_eq_of_cover 4 _ (fun t _ => flushed1_eq V c t) cover1

end Cert.Sage

end
-- ==== Proof.RefValue.lean ====
/-
  The reference program's result is two mean-aggregation layers.

  The reference computes, on the host, the neighbourhood mean of the node features along the edge list, the first
  layer's two products, their sum and its clip at zero; then the same neighbourhood mean of that hidden array, the second
  layer's two products and their sum. Read one operation at a time, each product is a sum over the 128 features, so
  the hidden array is the clipped layer formula of the features and their mean, and the result is the layer formula of
  the hidden array and its mean. The neighbourhood mean (a gather along the source nodes, a scatter-add over the
  destination nodes, a division by the clipped in-degree) is the same operations on both occasions and is never opened:
  it stays the one function `mean` of a node array and the two edge arrays.
-/
import proofs.«118331_j38543036514868_1_alg».proof.Proof.Gen.ReferenceIdeal.Read
import proofs.«118331_j38543036514868_1_alg».proof.Proof.Layer

noncomputable section

namespace Cert.Sage

open Cert.ReferenceIdeal Cert.ReferenceIdeal.Read
open Idealize.ShloMosaic Idealize.ShloMosaic.TcCoe Idealize.ShloMosaic.ValueIdx

/-- The neighbourhood mean of a node array along the edge list: for each node, the sum of the rows of `h` at the sources
    of the edges that end at it, divided by the larger of its in-degree and one. -/
abbrev mean (h : (⟨S100000x128, .f32⟩ : BufTy).Contents (Elt Ideal)) (src dst : (⟨S800000, .i32⟩ : BufTy).Contents (Elt Ideal)) :
    (⟨S100000x128, .f32⟩ : BufTy).Contents (Elt Ideal) :=
  val_main_v18 (F := Ideal) h src dst

/-- The two layers: the hidden array from the features and their mean, the result from the hidden array and its mean. -/
def sage (x0 : (⟨S100000x128, .f32⟩ : BufTy).Contents (Elt Ideal)) (x1 x2 : (⟨S128x128, .f32⟩ : BufTy).Contents (Elt Ideal)) (x3 x4 : (⟨S128x64, .f32⟩ : BufTy).Contents (Elt Ideal)) (x5 x6 : (⟨S800000, .i32⟩ : BufTy).Contents (Elt Ideal)) : (⟨2, ![100000, 64]⟩ : Shape).Idx → EReal :=
  lin 64 (hid 128 x0 (mean x0 x5 x6) x1 x2) (mean (hid 128 x0 (mean x0 x5 x6) x1 x2) x5 x6) x3 x4

/-! The operand indices of the four products, by coordinates. -/

theorem l19 (i : S100000x128.Idx) (k : Fin 128) : lidx_main_v19 i k = ix2 (i 0) k :=
  funext fun a => Fin.ext (by match a with | ⟨0, _⟩ => rfl | ⟨1, _⟩ => rfl)
theorem r19 (i : S100000x128.Idx) (k : Fin 128) : ridx_main_v19 i k = ix2 k (i 1) :=
  funext fun a => Fin.ext (by match a with | ⟨0, _⟩ => rfl | ⟨1, _⟩ => rfl)
theorem l20 (i : S100000x128.Idx) (k : Fin 128) : lidx_main_v20 i k = ix2 (i 0) k :=
  funext fun a => Fin.ext (by match a with | ⟨0, _⟩ => rfl | ⟨1, _⟩ => rfl)
theorem r20 (i : S100000x128.Idx) (k : Fin 128) : ridx_main_v20 i k = ix2 k (i 1) :=
  funext fun a => Fin.ext (by match a with | ⟨0, _⟩ => rfl | ⟨1, _⟩ => rfl)
theorem l42 (i : S100000x64.Idx) (k : Fin 128) : lidx_main_v42 i k = ix2 (i 0) k :=
  funext fun a => Fin.ext (by match a with | ⟨0, _⟩ => rfl | ⟨1, _⟩ => rfl)
theorem r42 (i : S100000x64.Idx) (k : Fin 128) : ridx_main_v42 i k = ix2 k (i 1) :=
  funext fun a => Fin.ext (by match a with | ⟨0, _⟩ => rfl | ⟨1, _⟩ => rfl)
theorem l43 (i : S100000x64.Idx) (k : Fin 128) : lidx_main_v43 i k = ix2 (i 0) k :=
  funext fun a => Fin.ext (by match a with | ⟨0, _⟩ => rfl | ⟨1, _⟩ => rfl)
theorem r43 (i : S100000x64.Idx) (k : Fin 128) : ridx_main_v43 i k = ix2 k (i 1) :=
  funext fun a => Fin.ext (by match a with | ⟨0, _⟩ => rfl | ⟨1, _⟩ => rfl)

/-- The hidden array: the clipped layer formula of the features and their neighbourhood mean. -/
theorem ref_hidden (x0 : (⟨S100000x128, .f32⟩ : BufTy).Contents (Elt Ideal)) (x1 x2 : (⟨S128x128, .f32⟩ : BufTy).Contents (Elt Ideal)) (x5 x6 : (⟨S800000, .i32⟩ : BufTy).Contents (Elt Ideal)) :
    val_main_v22 (F := Ideal) x0 x1 x2 x5 x6 = hid 128 x0 (mean x0 x5 x6) x1 x2 := by
  funext i
  rw [val_main_v22_apply, val_main_v21_apply, val_main_v19_apply, val_main_v20_apply, val_main_call0_v0_apply,
    val_main_call0_cst_apply]
  simp only [l19, r19, l20, r20]
  rfl

/-- The second neighbourhood mean is the first one's operations applied to the hidden array. -/
theorem ref_mean_hidden (x0 : (⟨S100000x128, .f32⟩ : BufTy).Contents (Elt Ideal)) (x1 x2 : (⟨S128x128, .f32⟩ : BufTy).Contents (Elt Ideal)) (x5 x6 : (⟨S800000, .i32⟩ : BufTy).Contents (Elt Ideal)) :
    val_main_v41 (F := Ideal) x0 x1 x2 x5 x6 = mean (val_main_v22 (F := Ideal) x0 x1 x2 x5 x6) x5 x6 := rfl

/-- The reference's result is the two layers. -/
theorem ref_result (x0 : (⟨S100000x128, .f32⟩ : BufTy).Contents (Elt Ideal)) (x1 x2 : (⟨S128x128, .f32⟩ : BufTy).Contents (Elt Ideal)) (x3 x4 : (⟨S128x64, .f32⟩ : BufTy).Contents (Elt Ideal)) (x5 x6 : (⟨S800000, .i32⟩ : BufTy).Contents (Elt Ideal)) :
    val_main_v44 (F := Ideal) x0 x1 x2 x3 x4 x5 x6 = sage x0 x1 x2 x3 x4 x5 x6 := by
  funext i
  rw [val_main_v44_apply, val_main_v42_apply, val_main_v43_apply, ref_mean_hidden, ref_hidden]
  simp only [l42, r42, l43, r43]
  rfl

end Cert.Sage

end
-- ==== Proof.Fold.lean ====
/-
  The buffer contents at the program's segment boundaries, at the arrays the two regions read.

  Before the first region the host has computed the neighbourhood mean of the node features; the region then leaves the
  hidden array (the first layer's clipped formula of the features, their mean and the first pair of weights). Before the
  second region the host has computed the neighbourhood mean of that hidden array, by the same operations; the region
  leaves the second layer's formula of the hidden array, its mean and the second pair of weights. No host operation
  and no region writes an argument array. So the result array ends holding the two layers of the launch arguments.
-/
import proofs.«118331_j38543036514868_1_alg».proof.Proof.Gen.KernelIdeal.Frame
import proofs.«118331_j38543036514868_1_alg».proof.Proof.Region
import proofs.«118331_j38543036514868_1_alg».proof.Proof.RefValue
import Idealize.ShloMosaic.Lib.StableHlo.Run

set_option maxRecDepth 16384

noncomputable section

namespace Cert.Sage

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## When the first region is entered -/

set_option maxHeartbeats 2000000 in
theorem W1_arg0 (c : Dev nD) : W1 (F := Ideal) m ρ c (Proc.devRef .tc main_arg0) = m ((c.tc : Thread nD τ).loc main_arg0) := by
  after_results_simp <;> rfl
set_option maxHeartbeats 2000000 in
theorem W1_arg1 (c : Dev nD) : W1 (F := Ideal) m ρ c (Proc.devRef .tc main_arg1) = m ((c.tc : Thread nD τ).loc main_arg1) := by
  after_results_simp <;> rfl
set_option maxHeartbeats 2000000 in
theorem W1_arg2 (c : Dev nD) : W1 (F := Ideal) m ρ c (Proc.devRef .tc main_arg2) = m ((c.tc : Thread nD τ).loc main_arg2) := by
  after_results_simp <;> rfl
set_option maxHeartbeats 2000000 in
theorem W1_arg3 (c : Dev nD) : W1 (F := Ideal) m ρ c (Proc.devRef .tc main_arg3) = m ((c.tc : Thread nD τ).loc main_arg3) := by
  after_results_simp <;> rfl
set_option maxHeartbeats 2000000 in
theorem W1_arg4 (c : Dev nD) : W1 (F := Ideal) m ρ c (Proc.devRef .tc main_arg4) = m ((c.tc : Thread nD τ).loc main_arg4) := by
  after_results_simp <;> rfl
set_option maxHeartbeats 2000000 in
theorem W1_arg5 (c : Dev nD) : W1 (F := Ideal) m ρ c (Proc.devRef .tc main_arg5) = m ((c.tc : Thread nD τ).loc main_arg5) := by
  after_results_simp <;> rfl
set_option maxHeartbeats 2000000 in
theorem W1_arg6 (c : Dev nD) : W1 (F := Ideal) m ρ c (Proc.devRef .tc main_arg6) = m ((c.tc : Thread nD τ).loc main_arg6) := by
  after_results_simp <;> rfl

set_option maxHeartbeats 2000000 in
/-- The first region's neighbour window reads the neighbourhood mean of the node features. -/
theorem W1_v18 (c : Dev nD) : W1 (F := Ideal) m ρ c (Proc.devRef .tc main_v18)
    = mean (m ((c.tc : Thread nD τ).loc main_arg0)) (m ((c.tc : Thread nD τ).loc main_arg5)) (m ((c.tc : Thread nD τ).loc main_arg6)) := by
  after_results_simp
  rfl

/-! ## When the first region is left -/

theorem W2_arg3 (c : Dev nD) : W2 (F := Ideal) m ρ c (Proc.devRef .tc main_arg3) = m ((c.tc : Thread nD τ).loc main_arg3) :=
  (W2_of_ne m ρ c main_arg3 (by decide)).trans (W1_arg3 m ρ c)
theorem W2_arg4 (c : Dev nD) : W2 (F := Ideal) m ρ c (Proc.devRef .tc main_arg4) = m ((c.tc : Thread nD τ).loc main_arg4) :=
  (W2_of_ne m ρ c main_arg4 (by decide)).trans (W1_arg4 m ρ c)
theorem W2_arg5 (c : Dev nD) : W2 (F := Ideal) m ρ c (Proc.devRef .tc main_arg5) = m ((c.tc : Thread nD τ).loc main_arg5) :=
  (W2_of_ne m ρ c main_arg5 (by decide)).trans (W1_arg5 m ρ c)
theorem W2_arg6 (c : Dev nD) : W2 (F := Ideal) m ρ c (Proc.devRef .tc main_arg6) = m ((c.tc : Thread nD τ).loc main_arg6) :=
  (W2_of_ne m ρ c main_arg6 (by decide)).trans (W1_arg6 m ρ c)

/-- The first region leaves the hidden array in its output array. -/
theorem W2_v19 (c : Dev nD) : W2 (F := Ideal) m ρ c (Proc.devRef .tc main_v19) = (hid 128 (m ((c.tc : Thread nD τ).loc main_arg0)) (mean (m ((c.tc : Thread nD τ).loc main_arg0)) (m ((c.tc : Thread nD τ).loc main_arg5)) (m ((c.tc : Thread nD τ).loc main_arg6))) (m ((c.tc : Thread nD τ).loc main_arg1)) (m ((c.tc : Thread nD τ).loc main_arg2))) := by
  refine (W2_arr m ρ c 4).trans ((final0 (V1 m ρ) c).trans ?_)
  rw [show V1 m ρ c main_arg0 = _ from W1_arg0 m ρ c, show V1 m ρ c main_v18 = _ from W1_v18 m ρ c,
    show V1 m ρ c main_arg1 = _ from W1_arg1 m ρ c, show V1 m ρ c main_arg2 = _ from W1_arg2 m ρ c]

/-! ## When the second region is entered -/

set_option maxHeartbeats 2000000 in
theorem W3_v19 (c : Dev nD) : W3 (F := Ideal) m ρ c (Proc.devRef .tc main_v19) = (hid 128 (m ((c.tc : Thread nD τ).loc main_arg0)) (mean (m ((c.tc : Thread nD τ).loc main_arg0)) (m ((c.tc : Thread nD τ).loc main_arg5)) (m ((c.tc : Thread nD τ).loc main_arg6))) (m ((c.tc : Thread nD τ).loc main_arg1)) (m ((c.tc : Thread nD τ).loc main_arg2))) := by
  refine Eq.trans ?_ (W2_v19 m ρ c)
  after_results_simp <;> rfl

set_option maxHeartbeats 2000000 in
theorem W3_arg3 (c : Dev nD) : W3 (F := Ideal) m ρ c (Proc.devRef .tc main_arg3) = m ((c.tc : Thread nD τ).loc main_arg3) := by
  refine Eq.trans ?_ (W2_arg3 m ρ c)
  after_results_simp <;> rfl

set_option maxHeartbeats 2000000 in
theorem W3_arg4 (c : Dev nD) : W3 (F := Ideal) m ρ c (Proc.devRef .tc main_arg4) = m ((c.tc : Thread nD τ).loc main_arg4) := by
  refine Eq.trans ?_ (W2_arg4 m ρ c)
  after_results_simp <;> rfl

set_option maxHeartbeats 2000000 in
/-- The second region's neighbour window reads the neighbourhood mean of the hidden array: the same host operations as
    before the first region, applied to the first region's output. -/
theorem W3_v38 (c : Dev nD) : W3 (F := Ideal) m ρ c (Proc.devRef .tc main_v38)
    = mean (hid 128 (m ((c.tc : Thread nD τ).loc main_arg0)) (mean (m ((c.tc : Thread nD τ).loc main_arg0)) (m ((c.tc : Thread nD τ).loc main_arg5)) (m ((c.tc : Thread nD τ).loc main_arg6))) (m ((c.tc : Thread nD τ).loc main_arg1)) (m ((c.tc : Thread nD τ).loc main_arg2))) (m ((c.tc : Thread nD τ).loc main_arg5)) (m ((c.tc : Thread nD τ).loc main_arg6)) := by
  have e : W3 (F := Ideal) m ρ c (Proc.devRef .tc main_v38)
      = mean (W2 (F := Ideal) m ρ c (Proc.devRef .tc main_v19)) (W2 (F := Ideal) m ρ c (Proc.devRef .tc main_arg5))
          (W2 (F := Ideal) m ρ c (Proc.devRef .tc main_arg6)) := by
    after_results_simp
    rfl
  rw [e, W2_v19, W2_arg5, W2_arg6]

/-! ## When the second region is left -/

/-- The result array ends holding the two layers of the launch arguments. -/
theorem kernel_value (c : Dev nD) :
    V4 (F := Ideal) m ρ c main_v39 = sage (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W4_arr m ρ c 4).trans ((final1 (V3 m ρ) c).trans ?_)
  rw [show V3 m ρ c main_v19 = _ from W3_v19 m ρ c, show V3 m ρ c main_v38 = _ from W3_v38 m ρ c,
    show V3 m ρ c main_arg3 = _ from W3_arg3 m ρ c, show V3 m ρ c main_arg4 = _ from W3_arg4 m ρ c]
  rfl

end Cert.Sage

end
-- ==== Proof.lean ====
/-
  Two mean-aggregation graph layers computed by tiled kernels equal the plain host reference, on the extended reals.

  Both programs compute, for 100000 nodes with 128 features and 800000 edges,
      hidden = max(feat · W_self1 + mean(feat) · W_neigh1, 0),   out = hidden · W_self2 + mean(hidden) · W_neigh2,
  where mean(h) is, row by row, the sum of the rows of h at the sources of the edges ending at the node divided by the
  larger of the node's in-degree and one. The kernel program computes each mean on the host exactly as the reference does
  (the same operations with the same literals) and each layer's two products, their sum and the clip in a region of 25
  tiles of 4000 rows; the reference computes the products on the host over all rows at once. On the extended reals the
  narrowing of the tiles' operands to bf16 is the identity, a product into a zero accumulator and a host product are the
  same sum over the 128 features, and a tile of rows of the layer's formula depends only on those rows of the operands.
  So both results are the one function `Cert.Sage.sage` of the seven arguments, with the two sums of each entry added in
  the same order on both sides: no algebraic law beyond reading the sums, and the precondition is not used.

  The three frames are the generated ones (the reference's is its generated run with the result dropped); the
  idealization rewrote no operation, so the preservation claim is trivial.
-/
import proofs.«118331_j38543036514868_1_alg».proof.Defs
import proofs.«118331_j38543036514868_1_alg».proof.Proof.Gen.Kernel
import proofs.«118331_j38543036514868_1_alg».proof.Proof.Gen.Kernel.Skeleton
import proofs.«118331_j38543036514868_1_alg».proof.Proof.Gen.Kernel.Launch
import proofs.«118331_j38543036514868_1_alg».proof.Proof.Gen.Kernel.Points
import proofs.«118331_j38543036514868_1_alg».proof.Proof.Gen.Kernel.Frame
import proofs.«118331_j38543036514868_1_alg».proof.Proof.Gen.KernelIdeal
import proofs.«118331_j38543036514868_1_alg».proof.Proof.Gen.KernelIdeal.Skeleton
import proofs.«118331_j38543036514868_1_alg».proof.Proof.Gen.KernelIdeal.Launch
import proofs.«118331_j38543036514868_1_alg».proof.Proof.Gen.KernelIdeal.Points
import proofs.«118331_j38543036514868_1_alg».proof.Proof.Gen.KernelIdeal.Frame
import proofs.«118331_j38543036514868_1_alg».proof.Proof.Gen.ReferenceIdeal
import proofs.«118331_j38543036514868_1_alg».proof.Proof.Gen.Pre_finite_inputs
import proofs.«118331_j38543036514868_1_alg».proof.Proof.Gen.ReferenceIdeal.Run
import proofs.«118331_j38543036514868_1_alg».proof.Proof.Gen.ReferenceIdeal.Read
import proofs.«118331_j38543036514868_1_alg».proof.Proof.KernelRun
import proofs.«118331_j38543036514868_1_alg».proof.Proof.Fold
import proofs.«118331_j38543036514868_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the two layers of the arguments in their result arrays: the kernel program by its run read
    through the segment boundaries, the reference by its run read one operation at a time. -/
theorem algebraic : Cert.algebraic_KernelIdeal_ReferenceIdeal := by
  intro m ρ m' ρ' _ hagree
  refine ⟨fun c => Cert.Sage.sage (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.Sage.kernel_value m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v44_eq, Cert.Sage.ref_result]
    obtain ⟨a0, a1, a2, a3, a4, a5, a6⟩ := hagree c
    rw [a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
